-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S256x256 : Shape := ⟨2, ![256, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : IVec S2x600000 32) (main_arg3 : FVec F S256x256 .f32) (main_arg4 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S100000x128 : Shape := ⟨2, ![100000, 128]⟩
abbrev S2x600000 : Shape := ⟨2, ![2, 600000]⟩
abbrev S256x256 : Shape := ⟨2, ![256, 256]⟩
abbrev S256 : Shape := ⟨1, ![256]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S256x128 : Shape := ⟨2, ![256, 128]⟩
abbrev S128x256 : Shape := ⟨2, ![128, 256]⟩
abbrev S1x256 : Shape := ⟨2, ![1, 256]⟩
abbrev S100000x256 : Shape := ⟨2, ![100000, 256]⟩
abbrev S10000x128 : Shape := ⟨2, ![10000, 128]⟩
abbrev S10000x1 : Shape := ⟨2, ![10000, 1]⟩
abbrev S10000x256 : Shape := ⟨2, ![10000, 256]⟩

abbrev nBuf : Space → Nat
  | .hbm => 35
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x600000, .i32⟩
  | .hbm, ⟨3, _⟩ => ⟨S256x256, .f32⟩
  | .hbm, ⟨4, _⟩ => ⟨S256, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S100000, .f32⟩
  | .hbm, ⟨26, _⟩ => ⟨S600000x1, .i32⟩
  | .hbm, ⟨27, _⟩ => ⟨S100000, .f32⟩
  | .hbm, ⟨28, _⟩ => ⟨S100000x1, .f32⟩
  | .hbm, ⟨29, _⟩ => ⟨S256x128, .f32⟩
  | .hbm, ⟨30, _⟩ => ⟨S128x256, .f32⟩
  | .hbm, ⟨31, _⟩ => ⟨S256x128, .f32⟩
  | .hbm, ⟨32, _⟩ => ⟨S128x256, .f32⟩
  | .hbm, ⟨33, _⟩ => ⟨S1x256, .f32⟩
  | .hbm, ⟨34, _⟩ => ⟨S100000x256, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S10000x256, .f32⟩
  | .local _ .vmem, ⟨10, _⟩ => ⟨S10000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  slices_S256x256_S256x128_0_0 : S256x256.Slices ![0, 0] S256x128
  transposes_S256x128_S128x256_1_0 : S256x128.Transposes [1, 0] S128x256
  slices_S256x256_S256x128_0_128 : S256x256.Slices ![0, 128] S256x128
  shapeCasts_S256_S1x256 : S256.ShapeCasts S1x256
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S10000x128_S128x256_S10000x256_1_0_0_1_n_n_wf : DotDims.WF S10000x128 S128x256 S10000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x256.size a ≤ S100000x256.size a
  hwx0_6 : ∀ i : grid0.Coords, EltTy.bits .f32 = 32 ∨ (Rect.block (s := S100000x256) S10000x256.size (cc0_transform_6 i) (hinb0_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S10000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S256x256 : Shape := ⟨2, ![256, 256]⟩
abbrev S256 : Shape := ⟨1, ![256]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩

abbrev nBuf : Space → Nat
  | .hbm => 43
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S2x600000, .i32⟩
  | .hbm, ⟨3, _⟩ => ⟨S256x256, .f32⟩
  | .hbm, ⟨4, _⟩ => ⟨S256, .f32⟩
  | .hbm, ⟨5, _⟩ => ⟨S1x600000, .i32⟩
  | .hbm, ⟨6, _⟩ => ⟨S600000, .i32⟩
  | .hbm, ⟨7, _⟩ => ⟨S1x600000, .i32⟩
  | .hbm, ⟨8, _⟩ => ⟨S600000, .i32⟩
  | .hbm, ⟨9, _⟩ => ⟨S_, .i32⟩
  | .hbm, ⟨10, _⟩ => ⟨S600000, .i32⟩
  | .hbm, ⟨11, _⟩ => ⟨S600000, .i1⟩
  | .hbm, ⟨12, _⟩ => ⟨S_, .i32⟩
  | .hbm, ⟨13, _⟩ => ⟨S600000, .i32⟩
  | .hbm, ⟨14, _⟩ => ⟨S600000, .i32⟩
  | .hbm, ⟨15, _⟩ => ⟨S600000, .i32⟩
  | .hbm, ⟨16, _⟩ => ⟨S600000x1, .i32⟩
  | .hbm, ⟨17, _⟩ => ⟨S600000x128, .f32⟩
  | .hbm, ⟨18, _⟩ => ⟨S_, .f32⟩
  | .hbm, ⟨19, _⟩ => ⟨S100000x128, .f32⟩
  | .hbm, ⟨20, _⟩ => ⟨S600000x1, .i32⟩
  | .hbm, ⟨21, _⟩ => ⟨S100000x128, .f32⟩
  | .hbm, ⟨22, _⟩ => ⟨S_, .f32⟩
  | .hbm, ⟨23, _⟩ => ⟨S600000, .f32⟩
  | .hbm, ⟨24, _⟩ => ⟨S_, .f32⟩
  | .hbm, ⟨25, _⟩ => ⟨S100000, .f32⟩
  | .hbm, ⟨26, _⟩ => ⟨S600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x256, .f32⟩
  | .hbm, ⟨35, _⟩ => ⟨S256x256, .f32⟩
  | .hbm, ⟨36, _⟩ => ⟨S100000x256, .f32⟩
  | .hbm, ⟨37, _⟩ => ⟨S1x256, .f32⟩
  | .hbm, ⟨38, _⟩ => ⟨S100000x256, .f32⟩
  | .hbm, ⟨39, _⟩ => ⟨S100000x256, .f32⟩
  | .hbm, ⟨40, _⟩ => ⟨S_, .f32⟩
  | .hbm, ⟨41, _⟩ => ⟨S100000x256, .f32⟩
  | .hbm, ⟨42, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S256x256_S256x256_1_0 : S256x256.Transposes [1, 0] S256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x256_S256x256_S100000x256_1_0_0_1_n_n_wf : DotDims.WF S100000x256 S256x256 S100000x256 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibColumnBroadcast.lean ====
/-
  A column spread along the columns of a matrix, read at an index, for any extents: an `[a, 1]` array
  broadcast to `[a, b]` holds, at `(p, c)`, the column's entry `p` whatever `c` is.
-/
import Idealize.ShloMosaic.Lib.ValueIdx
import Idealize.ShloMosaic.Lib.Pipeline.Value

noncomputable section

namespace Cert.Layout

open Idealize.ShloMosaic Idealize.ShloMosaic.ValueIdx

variable {α : Type}

/-- An `[a, 1]` array broadcast to `[a, b]` reads, at `(p, c)`, the operand's entry `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout

end
-- ==== Proof.Payload.lean ====
/-
  One block of the layer, entry by entry.

  The body reads a block `x` of destination features, the matching blocks `s` of summed messages and `cnt` of
  message counts (one column), the two halves `wd`, `wa` of the weight (already transposed, `[128, 256]` each) and
  the bias row `b`. It stores `max (x · wd + (s / max cnt 1) · wa + b) 0`. Read on the extended reals at entry
  `(p, q)` of the block this is

    max ((Σ_k x(p,k) · wd(k,q) + Σ_k (s(p,k) / max (cnt(p,0)) 1) · wa(k,q)) + b(0,q)) 0 :

  each matrix product into a zero accumulator is its contraction sum, the count column spread along the row
  reads the row's one count, the bias row spread down the rows reads its entry `q`.
-/
import proofs.«177289_j1099511628115_2_alg».proof.Proof.Gen.KernelIdeal.Skeleton
import proofs.«177289_j1099511628115_2_alg».proof.Proof.LibPlainDot
import proofs.«177289_j1099511628115_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.MeanLinear

open Idealize.ShloMosaic Idealize.ShloMosaic.ValueIdx Cert.KernelIdeal Cert.KernelIdeal.Gen

/-- The dimension numbers of the body's two products are those of a plain `[10000, 128]` by `[128, 256]` product. -/
theorem dot_plain : dot_S10000x128_S128x256_S10000x256_1_0_0_1_n_n = DotDims.plain 10000 128 256 := rfl

/-- The stored block at entry `(p, q)`. -/
theorem pay_apply (x s : Vec Ideal S10000x128 .f32) (cnt : Vec Ideal S10000x1 .f32) (wd wa : Vec Ideal S128x256 .f32)
    (b : Vec Ideal S1x256 .f32) (p : Fin 10000) (q : Fin 256) :
    k0_pay1 (F := Ideal) x s cnt wd wa b (ix2 p q)
      = max ((∑ k : Fin 128, x (ix2 p k) * wd (ix2 k q)
              + ∑ k : Fin 128, Ideal.div (s (ix2 p k)) (max (cnt (ix2 p (0 : Fin 1))) (Ideal.ofBits .f32 0x3F800000#32)) * wa (ix2 k q))
            + b (ix2 (0 : Fin 1) q)) (Ideal.ofBits .f32 0x00000000#32) := by
  unfold k0_pay1
  simp only [shapeCast_self, dot_plain]
  show max ((FloatOps.matmul (DotDims.plain 10000 128 256) (some .fp32) x wd (constant (F := Ideal) S10000x256 .f32 0x00000000#32) (ix2 p q)
      + FloatOps.matmul (DotDims.plain 10000 128 256) (some .fp32)
          (divf s (broadcastTo S10000x128 (maximumf cnt (broadcast S10000x1 (Scalar.ofBits (F := Ideal) .f32 0x3F800000#32))) broadcasts_S10000x1_S10000x128))
          wa (constant (F := Ideal) S10000x256 .f32 0x00000000#32) (ix2 p q))
      + broadcastTo S10000x256 b broadcasts_S1x256_S10000x256 (ix2 p q)) (Ideal.ofBits .f32 0x00000000#32) = _
  refine congrArg (fun z => max z (Ideal.ofBits .f32 0x00000000#32)) ?_
  refine congrArg₂ (· + ·) (congrArg₂ (· + ·) ?_ ?_) ?_
  · exact Cert.Sage.matmul_plain_zero_apply (some .fp32) x wd p q
  · refine (Cert.Sage.matmul_plain_zero_apply (some .fp32) _ wa p q).trans ?_
    refine Finset.sum_congr rfl fun k _ => ?_
    refine congrArg (· * wa (ix2 k q)) ?_
    show Ideal.div (s (ix2 p k)) (broadcastTo S10000x128 (maximumf cnt (broadcast S10000x1 (Scalar.ofBits (F := Ideal) .f32 0x3F800000#32))) broadcasts_S10000x1_S10000x128 (ix2 p k)) = _
    refine congrArg (Ideal.div (s (ix2 p k))) ?_
    exact Cert.Layout.broadcastTo_a1_ab_apply _ broadcasts_S10000x1_S10000x128 p k
  · exact broadcastTo_1b_ab_apply b broadcasts_S1x256_S10000x256 p q

end Cert.MeanLinear

end
-- ==== Proof.LibJoins.lean ====
/-
  A few layout operations read at an index, for any extents.

  A vector regarded as a column (`[a]` to `[a, 1]`); two matrices put side by side (`[m, n1]` and `[m, n2]` joined
  along the columns): a column below `n1` comes from the first, a column at or past it from the second; two
  vectors joined end to end, the same way.
-/
import Idealize.ShloMosaic.Lib.ValueIdx
import Idealize.ShloMosaic.Lib.ValueLayout
import Idealize.ShloMosaic.Lib.Pipeline.Value

noncomputable section

namespace Cert.Joins

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Two matrices side by side: a column of the first. -/
theorem join_cols_left {m n1 n2 : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n1 + n2]⟩ 1)
    (r : Fin m) (q : Fin (n1 + n2)) (c : Fin n1) (hc : c.val = q.val) :
    concatenate ⟨2, ![m, n1 + n2]⟩ 1 [⟨⟨2, ![m, n1]⟩, x1⟩, ⟨⟨2, ![m, n2]⟩, x2⟩] h (ix2 r q) = x1 (ix2 r c) :=
  concatenate_pair_apply_left 1 x1 x2 h (ix2 r q) rfl (ix2 r c) (fun b => by
    match b with
    | ⟨0, _⟩ => rfl
    | ⟨1, _⟩ => exact hc)

/-- Two matrices side by side: a column of the second. -/
theorem join_cols_right {m n1 n2 : ℕ} (x1 : (⟨2, ![m, n1]⟩ : Shape).Idx → α) (x2 : (⟨2, ![m, n2]⟩ : Shape).Idx → α)
    (h : Shape.Concatenates [⟨2, ![m, n1]⟩, ⟨2, ![m, n2]⟩] ⟨2, ![m, n1 + n2]⟩ 1)
    (r : Fin m) (q : Fin (n1 + n2)) (c : Fin n2) (hc : c.val + n1 = q.val) :
    concatenate ⟨2, ![m, n1 + n2]⟩ 1 [⟨⟨2, ![m, n1]⟩, x1⟩, ⟨⟨2, ![m, n2]⟩, x2⟩] h (ix2 r q) = x2 (ix2 r c) :=
  concatenate_pair_apply_right 1 x1 x2 h (ix2 r q) rfl rfl (ix2 r c) (fun b hb => by
    match b with
    | ⟨0, _⟩ => rfl
    | ⟨1, _⟩ => exact absurd rfl hb) hc

/-- Two vectors end to end: an entry of the first. -/
theorem join_vec_left {n1 n2 : ℕ} (x1 : (⟨1, ![n1]⟩ : Shape).Idx → α) (x2 : (⟨1, ![n2]⟩ : Shape).Idx → α)
    (h : Shape.Concatenates [⟨1, ![n1]⟩, ⟨1, ![n2]⟩] ⟨1, ![n1 + n2]⟩ 0)
    (q : Fin (n1 + n2)) (c : Fin n1) (hc : c.val = q.val) :
    concatenate ⟨1, ![n1 + n2]⟩ 0 [⟨⟨1, ![n1]⟩, x1⟩, ⟨⟨1, ![n2]⟩, x2⟩] h (ix1 q) = x1 (ix1 c) :=
  concatenate_pair_apply_left 0 x1 x2 h (ix1 q) rfl (ix1 c) (fun b => by
    match b with
    | ⟨0, _⟩ => exact hc)

/-- Two vectors end to end: an entry of the second. -/
theorem join_vec_right {n1 n2 : ℕ} (x1 : (⟨1, ![n1]⟩ : Shape).Idx → α) (x2 : (⟨1, ![n2]⟩ : Shape).Idx → α)
    (h : Shape.Concatenates [⟨1, ![n1]⟩, ⟨1, ![n2]⟩] ⟨1, ![n1 + n2]⟩ 0)
    (q : Fin (n1 + n2)) (c : Fin n2) (hc : c.val + n1 = q.val) :
    concatenate ⟨1, ![n1 + n2]⟩ 0 [⟨⟨1, ![n1]⟩, x1⟩, ⟨⟨1, ![n2]⟩, x2⟩] h (ix1 q) = x2 (ix1 c) :=
  concatenate_pair_apply_right 0 x1 x2 h (ix1 q) rfl rfl (ix1 c) (fun b hb => by
    match b with
    | ⟨0, _⟩ => exact absurd rfl hb) hc

end Cert.Joins

end
-- ==== Proof.Spec.lean ====
/-
  The layer as one function of its arguments, and the one law that joins its two spellings.

  For destination features `x`, summed messages `s` (both `[100000, 128]`), message counts `cnt` (`[100000]`), a
  weight `W` (`[256, 256]`, one row per output feature, its first 128 columns meeting `x` and its last 128 the mean
  message) and a bias `b` (`[256]`), entry `(r, c)` of the result is

    max ((Σ_{k<128} x(r,k) · W(c,k) + Σ_{k<128} (s(r,k) / max cnt(r) 1) · W(c,128+k)) + b(c)) 0

  on the extended reals. One program contracts the two halves separately and adds; the other joins `x` and the
  mean message side by side and contracts all 256 columns at once. A sum over 256 terms is the sum of its first
  128 plus the sum of its last 128 in any commutative additive monoid, so nothing here needs finite inputs.
-/
import Idealize.ShloMosaic.Lib.ValueIdx
import Idealize.ShloMosaic.PureOps.Ideal

noncomputable section

namespace Cert.MeanLinear

open Idealize.ShloMosaic Idealize.ShloMosaic.ValueIdx

/-- Column `k` of the weight's first half. -/
def lo (k : Fin 128) : Fin 256 := ⟨k.val, by omega⟩
/-- Column `k` of the weight's second half. -/
def hi (k : Fin 128) : Fin 256 := ⟨128 + k.val, by omega⟩

theorem lo_val (k : Fin 128) : (lo k).val = k.val := rfl
theorem hi_val (k : Fin 128) : (hi k).val = 128 + k.val := rfl

/-- A sum over 256 terms is the sum over the first 128 plus the sum over the last 128. -/
theorem sum_halves {M : Type*} [AddCommMonoid M] (f : Fin 256 → M) :
    ∑ k : Fin 256, f k = ∑ k : Fin 128, f (lo k) + ∑ k : Fin 128, f (hi k) :=
  Fin.sum_univ_add (a := 128) (b := 128) f

/-- Entry `(r, c)` of the layer's result. -/
def layerAt (x s : (⟨2, ![100000, 128]⟩ : Shape).Idx → EReal) (cnt : (⟨1, ![100000]⟩ : Shape).Idx → EReal)
    (W : (⟨2, ![256, 256]⟩ : Shape).Idx → EReal) (b : (⟨1, ![256]⟩ : Shape).Idx → EReal) (r : Fin 100000) (c : Fin 256) : EReal :=
  max ((∑ k : Fin 128, x (ix2 r k) * W (ix2 c (lo k))
        + ∑ k : Fin 128, Ideal.div (s (ix2 r k)) (max (cnt (ix1 r)) (Ideal.ofBits .f32 0x3F800000#32)) * W (ix2 c (hi k)))
      + b (ix1 c)) (Ideal.ofBits .f32 0x00000000#32)

/-- The layer's result as an array. -/
def layer (x s : (⟨2, ![100000, 128]⟩ : Shape).Idx → EReal) (cnt : (⟨1, ![100000]⟩ : Shape).Idx → EReal)
    (W : (⟨2, ![256, 256]⟩ : Shape).Idx → EReal) (b : (⟨1, ![256]⟩ : Shape).Idx → EReal) :
    (⟨2, ![100000, 256]⟩ : Shape).Idx → EReal :=
  fun i => layerAt x s cnt W b (i 0) (i 1)

theorem layer_ix2 (x s : (⟨2, ![100000, 128]⟩ : Shape).Idx → EReal) (cnt : (⟨1, ![100000]⟩ : Shape).Idx → EReal)
    (W : (⟨2, ![256, 256]⟩ : Shape).Idx → EReal) (b : (⟨1, ![256]⟩ : Shape).Idx → EReal) (r : Fin 100000) (c : Fin 256) :
    layer x s cnt W b (ix2 r c) = layerAt x s cnt W b r c := rfl

end Cert.MeanLinear

end
-- ==== Proof.HostArrays.lean ====
/-
  The arrays the kernel's windows are cut from, as the arguments' terms.

  Before the launch the program gathers the source rows, sums them per destination (`summed`), counts them
  (`count`, regarded as a column), cuts the weight into its two halves and transposes each, and regards the bias as a
  row. The sums and counts are the same operations, on the same arguments, as the other program's: they are
  named by that program's stages and never opened. The rest is layout, read at an entry:
  the count column at `(r, 0)` is `count r`; the first transposed half at `(k, q)` is `W (q, k)`, the second
  `W (q, 128 + k)`; the bias row at `(0, q)` is `b q`.
-/
import proofs.«177289_j1099511628115_2_alg».proof.Proof.Gen.KernelIdeal.Frame
import proofs.«177289_j1099511628115_2_alg».proof.Proof.Gen.ReferenceIdeal.Read
import proofs.«177289_j1099511628115_2_alg».proof.Proof.LibJoins
import proofs.«177289_j1099511628115_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.MeanLinear

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The summed messages the second window is cut from: the other program's stage of the same arguments. -/
theorem V_summed (c : Dev nD) :
    (V m c main_v13 : S100000x128.Idx → EReal)
      = Cert.ReferenceIdeal.Read.val_main_v13 (F := Ideal) (m ((c : Thread nD τ).loc main_arg0)) (m ((c : Thread nD τ).loc main_arg2)) := by
  dsimp only [Gen.V, Gen.hostOps0]
  after_results <;> rfl

/-- The count column the third window is cut from, at `(r, u)`: the other program's count at `r`. -/
theorem V_count (c : Dev nD) (r : Fin 100000) (u : Fin 1) :
    (V m c main_v18 : S100000x1.Idx → EReal) (ix2 r u)
      = Cert.ReferenceIdeal.Read.val_main_v17 (F := Ideal) (m ((c : Thread nD τ).loc main_arg2)) (ix1 r) := by
  have e : (V m c main_v18 : S100000x1.Idx → EReal)
      = shapeCast S100000x1 (Cert.ReferenceIdeal.Read.val_main_v17 (F := Ideal) (m ((c : Thread nD τ).loc main_arg2))) shapeCasts_S100000_S100000x1 := by
    dsimp only [Gen.V, Gen.hostOps0]
    after_results <;> rfl
  rw [e]
  exact Cert.Joins.shapeCast_a_a1_apply _ shapeCasts_S100000_S100000x1 r u

/-- The first half of the weight, transposed, at `(k, q)`. -/
theorem V_wd (c : Dev nD) (k : Fin 128) (q : Fin 256) :
    (V m c main_v20 : S128x256.Idx → EReal) (ix2 k q) = (m ((c : Thread nD τ).loc main_arg3) : S256x256.Idx → EReal) (ix2 q (lo k)) := by
  have e : (V m c main_v20 : S128x256.Idx → EReal)
      = transpose S128x256 [1, 0] (extractStridedSlice S256x128 ![0, 0] (m ((c : Thread nD τ).loc main_arg3) : S256x256.Idx → EReal) slices_S256x256_S256x128_0_0) transposes_S256x128_S128x256_1_0 := by
    dsimp only [Gen.V, Gen.hostOps0]
    after_results <;> rfl
  rw [e]
  refine (transpose_ix2_apply _ transposes_S256x128_S128x256_1_0 k q).trans ?_
  exact slice2_axis1_apply 0 _ slices_S256x256_S256x128_0_0 q k (lo k) (by rw [lo_val]; omega)

/-- The second half of the weight, transposed, at `(k, q)`. -/
theorem V_wa (c : Dev nD) (k : Fin 128) (q : Fin 256) :
    (V m c main_v22 : S128x256.Idx → EReal) (ix2 k q) = (m ((c : Thread nD τ).loc main_arg3) : S256x256.Idx → EReal) (ix2 q (hi k)) := by
  have e : (V m c main_v22 : S128x256.Idx → EReal)
      = transpose S128x256 [1, 0] (extractStridedSlice S256x128 ![0, 128] (m ((c : Thread nD τ).loc main_arg3) : S256x256.Idx → EReal) slices_S256x256_S256x128_0_128) transposes_S256x128_S128x256_1_0 := by
    dsimp only [Gen.V, Gen.hostOps0]
    after_results <;> rfl
  rw [e]
  refine (transpose_ix2_apply _ transposes_S256x128_S128x256_1_0 k q).trans ?_
  exact slice2_axis1_apply 128 _ slices_S256x256_S256x128_0_128 q k (hi k) (hi_val k)

/-- The bias regarded as one row, at `(u, q)`. -/
theorem V_bias (c : Dev nD) (u : Fin 1) (q : Fin 256) :
    (V m c main_v23 : S1x256.Idx → EReal) (ix2 u q) = (m ((c : Thread nD τ).loc main_arg4) : S256.Idx → EReal) (ix1 q) := by
  have e : (V m c main_v23 : S1x256.Idx → EReal)
      = shapeCast S1x256 (m ((c : Thread nD τ).loc main_arg4) : S256.Idx → EReal) shapeCasts_S256_S1x256 := by
    dsimp only [Gen.V, Gen.hostOps0]
    after_results <;> rfl
  rw [e]
  exact shapeCast_a_1a_apply _ shapeCasts_S256_S1x256 u q

end Cert.MeanLinear

end
-- ==== Proof.KernelValue.lean ====
/-
  The kernel's result array is the layer of its arguments.

  The grid has ten points; point `t` reads rows `10000·t … 10000·t + 9999` of the destination features, of the
  summed messages and of the count column, the two transposed weight halves and the bias row whole, and writes
  back rows `10000·t …` of the result. Entry `(p, q)` of what it writes is the body's stored value at `(p, q)`
  (Payload), whose inputs are the arguments' entries in row `10000·t + p` (HostArrays): the layer's entry
  `(10000·t + p, q)`. The ten row blocks cover the result, so the result is the layer.
-/
import proofs.«177289_j1099511628115_2_alg».proof.Proof.Gen.KernelIdeal.Value
import proofs.«177289_j1099511628115_2_alg».proof.Proof.Payload
import proofs.«177289_j1099511628115_2_alg».proof.Proof.HostArrays
import proofs.«177289_j1099511628115_2_alg».proof.Proof.Spec
import Idealize.ShloMosaic.Lib.Pipeline.Value
import Idealize.ShloMosaic.Lib.Tactic

noncomputable section

namespace Cert.MeanLinear

open Idealize.ShloMosaic Idealize.ShloMosaic.ValueIdx Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The layer of the arguments as the kernel's program finds them: the sums and counts are the other program's
    stages of the same arguments. -/
abbrev result (c : Dev nD) : S100000x256.Idx → EReal :=
  layer (m ((c : Thread nD τ).loc main_arg1))
    (Cert.ReferenceIdeal.Read.val_main_v13 (F := Ideal) (m ((c : Thread nD τ).loc main_arg0)) (m ((c : Thread nD τ).loc main_arg2)))
    (Cert.ReferenceIdeal.Read.val_main_v17 (F := Ideal) (m ((c : Thread nD τ).loc main_arg2)))
    (m ((c : Thread nD τ).loc main_arg3)) (m ((c : Thread nD τ).loc main_arg4))

/-- The block index maps over the grid: the three row-blocked inputs and the output move with the point, the
    weight halves and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of point `t`'s block is row `10000·t + p` of the array. -/
def rowOf (t : Fin cfg0.N) (p : Fin 10000) : Fin 100000 :=
  ⟨t.val * 10000 + p.val, by have := t.isLt; have := p.isLt; have hN : cfg0.N = 10 := N_0; omega⟩

theorem rowOf_val (t : Fin cfg0.N) (p : Fin 10000) : (rowOf t p).val = t.val * 10000 + p.val := rfl

/-- Destination features: entry `(p, k)` of point `t`'s block. -/
theorem iblk0_apply (c : Dev nD) (t : Fin cfg0.N) (p : Fin 10000) (k : Fin 128) :
    (iblk m c 0 t : Vec Ideal S10000x128 .f32) (ix2 p k)
      = (m ((c : Thread nD τ).loc main_arg1) : S100000x128.Idx → EReal) (ix2 (rowOf t p) k) := by
  obtain ⟨e0, e1, -⟩ := idx_facts t
  unfold iblk
  rw [View.read_apply]
  show V m c main_arg1 _ = _
  rw [V_main_arg1 m c]
  refine congrArg (m ((c : Thread nD τ).loc main_arg1) : S100000x128.Idx → EReal) ?_
  funext a
  apply Fin.ext
  match a with
  | ⟨0, _⟩ => show win0_0.index t (0 : Fin 2) * 10000 + 1 * p.val = t.val * 10000 + p.val; rw [e0]; omega
  | ⟨1, _⟩ => show win0_0.index t (1 : Fin 2) * 128 + 1 * k.val = k.val; rw [e1]; omega

/-- Summed messages: entry `(p, k)` of point `t`'s block. -/
theorem iblk1_apply (c : Dev nD) (t : Fin cfg0.N) (p : Fin 10000) (k : Fin 128) :
    (iblk m c 1 t : Vec Ideal S10000x128 .f32) (ix2 p k)
      = Cert.ReferenceIdeal.Read.val_main_v13 (F := Ideal) (m ((c : Thread nD τ).loc main_arg0)) (m ((c : Thread nD τ).loc main_arg2)) (ix2 (rowOf t p) k) := by
  obtain ⟨-, -, e0, e1, -⟩ := idx_facts t
  unfold iblk
  rw [View.read_apply]
  show V m c main_v13 _ = _
  rw [V_summed m c]
  refine congrArg (Cert.ReferenceIdeal.Read.val_main_v13 (F := Ideal) (m ((c : Thread nD τ).loc main_arg0)) (m ((c : Thread nD τ).loc main_arg2))) ?_
  funext a
  apply Fin.ext
  match a with
  | ⟨0, _⟩ => show win0_1.index t (0 : Fin 2) * 10000 + 1 * p.val = t.val * 10000 + p.val; rw [e0]; omega
  | ⟨1, _⟩ => show win0_1.index t (1 : Fin 2) * 128 + 1 * k.val = k.val; rw [e1]; omega

/-- Message counts: entry `(p, 0)` of point `t`'s block. -/
theorem iblk2_apply (c : Dev nD) (t : Fin cfg0.N) (p : Fin 10000) :
    (iblk m c 2 t : Vec Ideal S10000x1 .f32) (ix2 p (0 : Fin 1))
      = Cert.ReferenceIdeal.Read.val_main_v17 (F := Ideal) (m ((c : Thread nD τ).loc main_arg2)) (ix1 (rowOf t p)) := by
  obtain ⟨-, -, -, -, e0, e1, -⟩ := idx_facts t
  unfold iblk
  rw [View.read_apply]
  show V m c main_v18 _ = _
  refine Eq.trans ?_ (V_count m c (rowOf t p) (0 : Fin 1))
  refine congrArg (V m c main_v18 : S100000x1.Idx → EReal) ?_
  funext a
  apply Fin.ext
  match a with
  | ⟨0, _⟩ => show win0_2.index t (0 : Fin 2) * 10000 + 1 * p.val = t.val * 10000 + p.val; rw [e0]; omega
  | ⟨1, _⟩ => show win0_2.index t (1 : Fin 2) * 1 + 1 * 0 = 0; rw [e1]

/-- First weight half: entry `(k, q)`, at every point. -/
theorem iblk3_apply (c : Dev nD) (t : Fin cfg0.N) (k : Fin 128) (q : Fin 256) :
    (iblk m c 3 t : Vec Ideal S128x256 .f32) (ix2 k q)
      = (m ((c : Thread nD τ).loc main_arg3) : S256x256.Idx → EReal) (ix2 q (lo k)) := by
  obtain ⟨-, -, -, -, -, -, e0, e1, -⟩ := idx_facts t
  unfold iblk
  rw [View.read_apply]
  show V m c main_v20 _ = _
  refine Eq.trans ?_ (V_wd m c k q)
  refine congrArg (V m c main_v20 : S128x256.Idx → EReal) ?_
  funext a
  apply Fin.ext
  match a with
  | ⟨0, _⟩ => show win0_3.index t (0 : Fin 2) * 128 + 1 * k.val = k.val; rw [e0]; omega
  | ⟨1, _⟩ => show win0_3.index t (1 : Fin 2) * 256 + 1 * q.val = q.val; rw [e1]; omega

/-- Second weight half: entry `(k, q)`, at every point. -/
theorem iblk4_apply (c : Dev nD) (t : Fin cfg0.N) (k : Fin 128) (q : Fin 256) :
    (iblk m c 4 t : Vec Ideal S128x256 .f32) (ix2 k q)
      = (m ((c : Thread nD τ).loc main_arg3) : S256x256.Idx → EReal) (ix2 q (hi k)) := by
  obtain ⟨-, -, -, -, -, -, -, -, e0, e1, -⟩ := idx_facts t
  unfold iblk
  rw [View.read_apply]
  show V m c main_v22 _ = _
  refine Eq.trans ?_ (V_wa m c k q)
  refine congrArg (V m c main_v22 : S128x256.Idx → EReal) ?_
  funext a
  apply Fin.ext
  match a with
  | ⟨0, _⟩ => show win0_4.index t (0 : Fin 2) * 128 + 1 * k.val = k.val; rw [e0]; omega
  | ⟨1, _⟩ => show win0_4.index t (1 : Fin 2) * 256 + 1 * q.val = q.val; rw [e1]; omega

/-- Bias row: entry `(0, q)`, at every point. -/
theorem iblk5_apply (c : Dev nD) (t : Fin cfg0.N) (q : Fin 256) :
    (iblk m c 5 t : Vec Ideal S1x256 .f32) (ix2 (0 : Fin 1) q)
      = (m ((c : Thread nD τ).loc main_arg4) : S256.Idx → EReal) (ix1 q) := by
  obtain ⟨-, -, -, -, -, -, -, -, -, -, e0, e1, -⟩ := idx_facts t
  unfold iblk
  rw [View.read_apply]
  show V m c main_v23 _ = _
  refine Eq.trans ?_ (V_bias m c (0 : Fin 1) q)
  refine congrArg (V m c main_v23 : S1x256.Idx → EReal) ?_
  funext a
  apply Fin.ext
  match a with
  | ⟨0, _⟩ => show win0_5.index t (0 : Fin 2) * 1 + 1 * 0 = 0; rw [e0]
  | ⟨1, _⟩ => show win0_5.index t (1 : Fin 2) * 256 + 1 * q.val = q.val; rw [e1]; omega

/-- Entry `(p, q)` of point `t`'s output block sits at `(10000·t + p, q)` of the result. -/
theorem emb6 (t : Fin cfg0.N) (p : Fin 10000) (q : Fin 256) :
    ((cfg0.win 6).blk t).view.emb (ix2 p q : S10000x256.Idx) = (ix2 (rowOf t p) q : S100000x256.Idx) := by
  obtain ⟨-, -, -, -, -, -, -, -, -, -, -, -, e0, e1⟩ := idx_facts t
  funext a
  apply Fin.ext
  match a with
  | ⟨0, _⟩ => show win0_6.index t (0 : Fin 2) * 10000 + 1 * p.val = t.val * 10000 + p.val; rw [e0]; omega
  | ⟨1, _⟩ => show win0_6.index t (1 : Fin 2) * 256 + 1 * q.val = q.val; rw [e1]; omega

/-- What point `t` writes back is block `t` of the layer. -/
theorem flushed_eq (c : Dev nD) (t : Fin cfg0.N) :
    (dats m 0 c).flushed 6 t = ((cfg0.win 6).blk t).view.read (Elt Ideal) (result m c) := by
  rw [Cert.KernelIdeal.Value.flushed6]
  unfold out0_6
  rw [View.canon_unit_zero hz]
  simp only [View.ld_unit_zero (S := S10000x128) hz, View.ld_unit_zero (S := S10000x1) hz,
    View.ld_unit_zero (S := S128x256) hz, View.ld_unit_zero (S := S1x256) hz]
  funext j
  obtain ⟨p, q, rfl⟩ : ∃ (p : Fin 10000) (q : Fin 256), j = ix2 p q := ⟨j 0, j 1, eq_ix2 j⟩
  rw [View.read_apply]
  show k0_pay1 (F := Ideal) (iblk m c 0 t) (iblk m c 1 t) (iblk m c 2 t) (iblk m c 3 t) (iblk m c 4 t) (iblk m c 5 t) (ix2 p q)
    = result m c (((cfg0.win 6).blk t).view.emb (ix2 p q : S10000x256.Idx))
  refine Eq.trans ?_ (congrArg (result m c) (emb6 t p q).symm)
  refine (pay_apply (iblk m c 0 t) (iblk m c 1 t) (iblk m c 2 t) (iblk m c 3 t) (iblk m c 4 t) (iblk m c 5 t) p q).trans ?_
  show _ = layerAt _ _ _ _ _ (rowOf t p) q
  unfold layerAt
  refine congrArg (fun z => max z (Ideal.ofBits .f32 0x00000000#32)) ?_
  refine congrArg₂ (· + ·) (congrArg₂ (· + ·) (Finset.sum_congr rfl fun k _ => ?_) (Finset.sum_congr rfl fun k _ => ?_)) ?_
  · rw [iblk0_apply m c t p k, iblk3_apply m c t k q]
  · rw [iblk1_apply m c t p k, iblk2_apply m c t p, iblk4_apply m c t k q]
  · exact iblk5_apply m c t q

/-- An index of the result is in point `t`'s block iff each coordinate is in the block's range on its axis. -/
theorem mem_blk6 (t : Fin cfg0.N) (i : S100000x256.Idx) :
    i ∈ ((cfg0.win 6).blk t).view.set ↔ ∀ a : Fin 2, win0_6.index t a * S10000x256.size a ≤ (i a).val ∧ (i a).val < win0_6.index t a * S10000x256.size a + S10000x256.size a := by
  show i ∈ ((View.whole main_v24).slice (win0_6.rect t)).set ↔ _
  rw [View.set_slice_whole, Rect.mem_set_unit]
  exact Iff.rfl

/-- Every entry of the result is in the block of the point its row falls to. -/
theorem cover (i : S100000x256.Idx) :
    ∃ t : Fin cfg0.N, (cfg0.win 6).flush t = true ∧ i ∈ ((cfg0.win 6).blk t).view.set := by
  have hN : cfg0.N = 10 := N_0
  have hi0 : (i 0).val < 100000 := (i 0).isLt
  have hi1 : (i 1).val < 256 := (i 1).isLt
  have ht : (i 0).val / 10000 < cfg0.N := by omega
  obtain ⟨-, -, -, -, -, -, -, -, -, -, -, -, e0, e1⟩ := idx_facts ⟨(i 0).val / 10000, ht⟩
  refine ⟨⟨(i 0).val / 10000, ht⟩, flush0_6 _, ?_⟩
  rw [mem_blk6]
  intro a
  match a with
  | ⟨0, _⟩ =>
    show win0_6.index ⟨(i 0).val / 10000, ht⟩ (0 : Fin 2) * 10000 ≤ (i 0).val ∧ (i 0).val < win0_6.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_6.index ⟨(i 0).val / 10000, ht⟩ (1 : Fin 2) * 256 ≤ (i 1).val ∧ (i 1).val < win0_6.index ⟨(i 0).val / 10000, ht⟩ (1 : Fin 2) * 256 + 256
    rw [e1]
    omega

/-- The result array after the run is the layer. -/
theorem final (c : Dev nD) : (dats m 0 c).arrAt 6 cfg0.N = result m c :=
  (dats m 0 c).arrAt_eq_of_cover 6 (result m c) (fun t _ => flushed_eq m c t) cover

/-- The kernel's run: the result at the layer of the arguments, the arguments unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.MeanLinear

end
-- ==== Proof.RefValue.lean ====
/-
  The reference's result is the layer of its arguments.

  The reference divides the summed messages by `max count 1` spread along each row, puts the destination
  features and that mean side by side (`[100000, 256]`), contracts the 256 columns against the transposed weight,
  adds the bias spread down the rows, and takes the maximum with zero. Read at `(r, c)`: the contraction is a sum
  over 256 columns whose first 128 terms are `x(r,k) · W(c,k)` and whose last 128 are
  `(s(r,k) / max cnt(r) 1) · W(c,128+k)`; split in two halves it is the layer's entry.
-/
import proofs.«177289_j1099511628115_2_alg».proof.Proof.Gen.ReferenceIdeal.Read
import proofs.«177289_j1099511628115_2_alg».proof.Proof.LibJoins
import proofs.«177289_j1099511628115_2_alg».proof.Proof.Spec
import Idealize.ShloMosaic.Lib.ValueIdx
import Idealize.ShloMosaic.Lib.Pipeline.Value
import Idealize.ShloMosaic.PureOps.Ideal.Laws

noncomputable section

namespace Cert.MeanLinear.Ref

open Idealize.ShloMosaic Idealize.ShloMosaic.ValueIdx
open Cert.ReferenceIdeal Cert.ReferenceIdeal.Gen Cert.ReferenceIdeal.Read Cert.MeanLinear

/-- The mean message at `(r, k)`: the summed messages' entry over the row's count floored at one. -/
theorem mean_apply (x0 : (⟨S100000x128, .f32⟩ : BufTy).Contents (Elt Ideal)) (x2 : (⟨S2x600000, .i32⟩ : BufTy).Contents (Elt Ideal))
    (r : Fin 100000) (k : Fin 128) :
    val_main_v22 (F := Ideal) x0 x2 (ix2 r k)
      = Ideal.div (val_main_v13 (F := Ideal) x0 x2 (ix2 r k)) (max (val_main_v17 (F := Ideal) x2 (ix1 r)) (Ideal.ofBits .f32 0x3F800000#32)) := by
  have e : idx_main_v20 (idx_main_v21 (ix2 r k : S100000x128.Idx)) = ix1 r :=
    funext fun a => Fin.ext (by match a with | ⟨0, _⟩ => rfl)
  rw [val_main_v22_apply, val_main_v21_apply, val_main_v20_apply, val_main_v19_apply, val_main_v18_apply, val_main_cst_3_apply, e]
  rfl

/-- The reference's result array is the layer of its arguments. -/
theorem result_eq (x0 x1 : (⟨S100000x128, .f32⟩ : BufTy).Contents (Elt Ideal)) (x2 : (⟨S2x600000, .i32⟩ : BufTy).Contents (Elt Ideal))
    (x3 : (⟨S256x256, .f32⟩ : BufTy).Contents (Elt Ideal)) (x4 : (⟨S256, .f32⟩ : BufTy).Contents (Elt Ideal)) :
    val_main_v29 (F := Ideal) x0 x1 x2 x3 x4
      = layer x1 (val_main_v13 (F := Ideal) x0 x2) (val_main_v17 (F := Ideal) x2) x3 x4 := by
  funext i
  obtain ⟨r, c, rfl⟩ : ∃ (r : Fin 100000) (c : Fin 256), i = ix2 r c := ⟨i 0, i 1, eq_ix2 i⟩
  rw [layer_ix2, val_main_v29_apply, val_main_v28_apply, val_main_v25_apply, val_main_v27_apply, val_main_v26_apply,
    val_main_call0_v0_apply, val_main_call0_cst_apply]
  unfold layerAt
  show max ((∑ k : Fin 256, val_main_v23 (F := Ideal) x0 x1 x2 (lidx_main_v25 (ix2 r c) k) * val_main_v24 (F := Ideal) x3 (ridx_main_v25 (ix2 r c) k))
      + x4 (idx_main_v26 (idx_main_v27 (ix2 r c)))) (Ideal.ofBits .f32 0x00000000#32) = _
  refine congrArg (fun z => max z (Ideal.ofBits .f32 0x00000000#32)) ?_
  refine congrArg₂ (· + ·) ?_ ?_
  · rw [sum_halves]
    refine congrArg₂ (· + ·) (Finset.sum_congr rfl fun k _ => ?_) (Finset.sum_congr rfl fun k _ => ?_)
    · have el : lidx_main_v25 (ix2 r c) (lo k) = ix2 r (lo k) :=
        funext fun a => Fin.ext (by match a with | ⟨0, _⟩ => rfl | ⟨1, _⟩ => rfl)
      have er : idx_main_v24 (ridx_main_v25 (ix2 r c) (lo k)) = ix2 c (lo k) :=
        funext fun a => Fin.ext (by match a with | ⟨0, _⟩ => rfl | ⟨1, _⟩ => rfl)
      rw [el, val_main_v24_apply, er]
      refine congrArg (· * x3 (ix2 c (lo k))) ?_
      unfold val_main_v23
      exact Cert.Joins.join_cols_left x1 (val_main_v22 (F := Ideal) x0 x2) concatenates_S100000x128_S100000x128_S100000x256_d1 r (lo k) k (lo_val k).symm
    · have el : lidx_main_v25 (ix2 r c) (hi k) = ix2 r (hi k) :=
        funext fun a => Fin.ext (by match a with | ⟨0, _⟩ => rfl | ⟨1, _⟩ => rfl)
      have er : idx_main_v24 (ridx_main_v25 (ix2 r c) (hi k)) = ix2 c (hi k) :=
        funext fun a => Fin.ext (by match a with | ⟨0, _⟩ => rfl | ⟨1, _⟩ => rfl)
      rw [el, val_main_v24_apply, er]
      refine congrArg (· * x3 (ix2 c (hi k))) ?_
      unfold val_main_v23
      refine (Cert.Joins.join_cols_right x1 (val_main_v22 (F := Ideal) x0 x2) concatenates_S100000x128_S100000x128_S100000x256_d1 r (hi k) k
        (by rw [hi_val]; omega)).trans ?_
      exact mean_apply x0 x2 r k
  · refine congrArg x4 ?_
    exact funext fun a => Fin.ext (by match a with | ⟨0, _⟩ => rfl)

end Cert.MeanLinear.Ref

end
-- ==== Proof.lean ====
/-
  A graph-convolution layer with mean aggregation: for every destination node, the mean of the source rows sent to
  it (their sum over `max count 1`), then `relu ([x_dst, mean] · Wᵀ + b)`.

  Both programs gather the source rows, sum them per destination and count them with the same host operations on
  the same arguments. The kernel then works on ten blocks of 10000 rows: it divides the summed rows by the count
  column floored at one, multiplies the destination rows by the first transposed half of the weight and the mean
  rows by the second, adds the two products and the bias row, and takes the maximum with zero. The reference
  joins the destination rows and the mean rows side by side and multiplies once by the whole transposed weight.
  On the extended reals every product is its exact contraction sum, and a sum over the 256 joined columns is the
  sum over the first 128 plus the sum over the last 128, so both results are one function of the arguments
  (`Cert.MeanLinear.layer`), entry by entry; no finiteness of the inputs is used. The idealization rewrote no
  operation, so there is nothing to preserve.
-/
import proofs.«177289_j1099511628115_2_alg».proof.Defs
import proofs.«177289_j1099511628115_2_alg».proof.Proof.Gen.Kernel
import proofs.«177289_j1099511628115_2_alg».proof.Proof.Gen.Kernel.Frame
import proofs.«177289_j1099511628115_2_alg».proof.Proof.Gen.KernelIdeal
import proofs.«177289_j1099511628115_2_alg».proof.Proof.Gen.KernelIdeal.Frame
import proofs.«177289_j1099511628115_2_alg».proof.Proof.Gen.KernelIdeal.Value
import proofs.«177289_j1099511628115_2_alg».proof.Proof.Gen.ReferenceIdeal
import proofs.«177289_j1099511628115_2_alg».proof.Proof.Gen.ReferenceIdeal.Run
import proofs.«177289_j1099511628115_2_alg».proof.Proof.Gen.ReferenceIdeal.Read
import proofs.«177289_j1099511628115_2_alg».proof.Proof.Gen.Pre_finite_inputs
import proofs.«177289_j1099511628115_2_alg».proof.Proof.KernelValue
import proofs.«177289_j1099511628115_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments the kernel's result array ends at the layer of the arguments and so
    does the reference's. -/
theorem algebraic : Cert.algebraic_KernelIdeal_ReferenceIdeal := by
  intro m ρ m' ρ' _ hagree
  refine ⟨fun c => Cert.MeanLinear.result m c, Cert.MeanLinear.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.MeanLinear.Ref.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
